-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x40, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x40, .f32⟩
  | .hbm, ⟨75, _⟩ => ⟨S1700000x1, .f32⟩
  | .hbm, ⟨76, _⟩ => ⟨S1700000x40, .f32⟩
  | .hbm, ⟨77, _⟩ => ⟨S1700000x40, .f32⟩
  | .hbm, ⟨78, _⟩ => ⟨S_, .f32⟩
  | .hbm, ⟨79, _⟩ => ⟨S100000x40, .f32⟩
  | .hbm, ⟨80, _⟩ => ⟨S1700000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x40, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x40, .f32⟩
  | .hbm, ⟨115, _⟩ => ⟨S1700000x1, .f32⟩
  | .hbm, ⟨116, _⟩ => ⟨S1700000x40, .f32⟩
  | .hbm, ⟨117, _⟩ => ⟨S1700000x40, .f32⟩
  | .hbm, ⟨118, _⟩ => ⟨S_, .f32⟩
  | .hbm, ⟨119, _⟩ => ⟨S100000x40, .f32⟩
  | .hbm, ⟨120, _⟩ => ⟨S1700000x1, .i32⟩
  | .hbm, ⟨121, _⟩ => ⟨S100000x40, .f32⟩
  | .hbm, ⟨122, _⟩ => ⟨S1x40, .f32⟩
  | .hbm, ⟨123, _⟩ => ⟨S100000x40, .f32⟩
  | .hbm, ⟨124, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  The reference's result as a composition of named pieces (a two-layer graph convolution).

  From the edge list e : i32[2, 1600000] the reference forms the source and target node lists with one self-loop per
  node appended (rows, cols : 1700000 entries), the in-degree of every node counting those (deg), its inverse square
  root where the degree is positive and 0 elsewhere (dinv), and the symmetric edge weight dinv[row]·dinv[col] (norm).
  A graph aggregation of a node-feature matrix H gathers row rows[j] of H for every edge j, scales it by norm[j], and
  adds it into row cols[j] of a zero matrix (agg64 for 64 features, agg40 for 40). The whole network is
      out = agg40 (relu (agg64 (X·W₁) + b₁) · W₂) + b₂
  with the bias rows repeated down the 100000 nodes. A negative node number counts from the end (pick adds 100000 to
  it), as jnp indexing does. Every piece below is the reference program's own operations, in its own order.
-/
import proofs.«129518_j10282151706868_1_alg».proof.Proof.Gen.ReferenceIdeal
import Idealize.ShloMosaic.PureOps.Ideal

set_option maxRecDepth 8192

noncomputable section

namespace Cert.ReferenceIdeal.Spec

open Cert.ReferenceIdeal Cert.ReferenceIdeal.Gen Idealize.ShloMosaic Idealize.ShloMosaic.TcCoe

/-- The source node of every edge, then of every node's self-loop. -/
def rows (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The target node of every edge, then of every node's self-loop. -/
def cols (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Node numbers as row numbers of a gather: a negative one counts from the end; as a column of indices. -/
def pick (X : IVec S1700000 32) : IVec S1700000x1 32 :=
  broadcastInDim S1700000x1 ![0] bcast_S1700000_S1700000x1_0 (select (cmpi .slt X (broadcastInDim S1700000 ![] bcast_S_S1700000 (constantI S_ 32 0#32))) (addi X (broadcastInDim S1700000 ![] bcast_S_S1700000 (constantI S_ 32 100000#32))) X)

/-- The in-degree of every node, self-loops counted: a one added at every edge's target. -/
def deg (e : IVec S2x1600000 32) : FVec Ideal S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (cols e)) (broadcastInDim S1700000 ![] bcast_S_S1700000 (constant S_ .f32 0x3F800000#32))

/-- deg^(-1/2) where the degree is positive, 0 elsewhere. -/
def dinv (e : IVec S2x1600000 32) : FVec Ideal S100000 .f32 :=
  select (cmpf (F := Ideal) .ogt (deg e) (broadcastInDim S100000 ![] bcast_S_S100000 (constant S_ .f32 0x00000000#32))) (Host.rsqrt (deg e)) (broadcastInDim S100000 ![] bcast_S_S100000 (id (constant S_ .f32 0x00000000#32)))

/-- The symmetric weight of every edge: dinv at its source times dinv at its target. -/
def norm (e : IVec S2x1600000 32) : FVec Ideal S1700000 .f32 :=
  mulf (Host.gather gather_S100000_S1700000x1_S1700000_n_0_n_n_0_1_1 (dinv e) (pick (rows e))) (Host.gather gather_S100000_S1700000x1_S1700000_n_0_n_n_0_1_1 (dinv e) (pick (cols e)))

/-- The aggregation of a [100000, 64] node-feature matrix over the edges. -/
def agg64 (e : IVec S2x1600000 32) (h : FVec Ideal S100000x64 .f32) : FVec Ideal S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (cols e)) (mulf (Host.gather gather_S100000x64_S1700000x1_S1700000x64_1_0_n_n_0_1_164 h (pick (rows e))) (broadcastInDim S1700000x64 ![0, 1] bcast_S1700000x1_S1700000x64_0_1 (broadcastInDim S1700000x1 ![0] bcast_S1700000_S1700000x1_0 (norm e))))

/-- The aggregation of a [100000, 40] node-feature matrix over the edges. -/
def agg40 (e : IVec S2x1600000 32) (h : FVec Ideal S100000x40 .f32) : FVec Ideal S100000x40 .f32 :=
  Host.scatterAdd scatter_S100000x40_S1700000x1_S1700000x40_1_0_0_1 (broadcastInDim S100000x40 ![] bcast_S_S100000x40 (constant S_ .f32 0x00000000#32)) (broadcastInDim S1700000x1 ![0] bcast_S1700000_S1700000x1_0 (cols e)) (mulf (Host.gather gather_S100000x40_S1700000x1_S1700000x40_1_0_n_n_0_1_140 h (pick (rows e))) (broadcastInDim S1700000x40 ![0, 1] bcast_S1700000x1_S1700000x40_0_1 (broadcastInDim S1700000x1 ![0] bcast_S1700000_S1700000x1_0 (norm e))))

/-- The network: aggregate X·W₁, add b₁, rectify, aggregate the product with W₂, add b₂. -/
def out (x : FVec Ideal S100000x128 .f32) (e : IVec S2x1600000 32) (W1 : FVec Ideal S128x64 .f32) (b1 : FVec Ideal S64 .f32)
    (W2 : FVec Ideal S64x40 .f32) (b2 : FVec Ideal S40 .f32) : FVec Ideal S100000x40 .f32 :=
  addf (agg40 e (Host.dotGeneral dot_S100000x64_S64x40_S100000x40_1_0_0_1_n_n none (maximumf (addf (agg64 e (Host.dotGeneral dot_S100000x128_S128x64_S100000x64_1_0_0_1_n_n none x W1)) (broadcastInDim S100000x64 ![0, 1] bcast_S1x64_S100000x64_0_1 (broadcastInDim S1x64 ![1] bcast_S64_S1x64_1 b1))) (broadcastInDim S100000x64 ![] bcast_S_S100000x64 (constant S_ .f32 0x00000000#32))) W2)) (broadcastInDim S100000x40 ![0, 1] bcast_S1x40_S100000x40_0_1 (broadcastInDim S1x40 ![1] bcast_S40_S1x40_1 b2))

end Cert.ReferenceIdeal.Spec

end
-- ==== Proof.RefSpec.lean ====
/-
  The reference program's result is the network of Spec.lean: its run's composed term, with the edge lists, the
  degree normalisation and the two aggregations named, is that composition of pieces, symbol for symbol.
-/
import proofs.«129518_j10282151706868_1_alg».proof.Proof.Spec
import proofs.«129518_j10282151706868_1_alg».proof.Proof.RefRun

set_option maxRecDepth 16384

noncomputable section

namespace Cert.ReferenceIdeal.Spec

open Cert.ReferenceIdeal Cert.ReferenceIdeal.Gen Idealize.ShloMosaic Idealize.ShloMosaic.TcCoe Idealize.SL.Sem

/-- What the reference's run leaves in its result buffer is `out` of the six argument arrays. -/
theorem res_eq (m : (ℓ : Loc nD τ sig) → Buf (Elt Ideal) ℓ) (c : Dev nD) :
    Cert.ReferenceIdeal.ValueP.res_main_v90 (F := Ideal) m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v90 out agg40 agg64 norm dinv deg pick rows cols
  rfl

end Cert.ReferenceIdeal.Spec

end
-- ==== Proof.KernelRun.lean ====
/-
  The kernel program's run with its result named.

  @main is nine segments — three stretches of host operations, the first dense layer's region, a stretch, the bias and
  rectifier's region, the second dense layer's region, a stretch, the last bias's region — and the contents of the
  TensorCore's buffers at each boundary are a fold from the launch memory: a stretch applies its operations
  (StableHlo.after), a region replaces its arrays by what its write-backs leave and keeps everything else. Every weakly
  fair execution terminates, without a fault, in a state whose every unscoped buffer holds the last boundary's contents
  (W9); in particular the result buffer holds W9 at it, and the six arguments are as launched: the run behind the
  imported frame theorem, with the result buffer read off the final contents beside the arguments.
-/
import proofs.«129518_j10282151706868_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the six argument arrays as launched. -/
theorem run_out : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibRowBlockMatmul.lean ====
/-
  A block of rows of a plain matrix product.

  For the plain contraction `[M, K] × [K, N] → [M, N]` on the extended reals, the host's product (no accumulator)
  and the matrix unit's product into the zero matrix are one function, and both read at `(r, c)` as
  `Σ_k lhs (r, k) · rhs (k, c)`. Hence a product computed on a BLOCK OF ROWS of the left operand — a `[Mb, K]` matrix
  whose row `p` is row `r` of the whole `[Mt, K]` matrix — has, at `(p, c)`, the entry `(r, c)` of the whole product:
  a row of the product depends on that row of the left operand only. All at any extents, and whatever the float
  formats of the four matrices (on the extended reals a change of format is the identity).
-/
import Idealize.ShloMosaic.Lib.ValueIdx
import Idealize.ShloMosaic.PureOps.Ideal.Laws
import proofs.«129518_j10282151706868_1_alg».proof.Proof.LibPlainMatmul

namespace Cert.RowBlockMatmul

open Idealize.ShloMosaic Idealize.ShloMosaic.ValueIdx

/-- The host's product is the matrix unit's product into the zero matrix, for any dimension numbers. -/
theorem dotGeneral_eq_matmul_zero {sl sr so : Shape} {φ₁ φ₂ : FTy} (d : DotDims sl sr so)
    (prec : Option ContractPrecision) (sched : HostSchedule) (lhs : FVec Ideal sl φ₁) (rhs : FVec Ideal sr φ₂) :
    FloatOps.dotGeneral d prec sched lhs rhs = FloatOps.matmul d prec lhs rhs (constant so .f32 0x00000000#32) := by
  funext j
  rw [Ideal.dotGeneral_apply, Ideal.matmul_constant_zero_apply]

variable {M K N : ℕ}

/-- The host's plain product at `(r, c)`: the sum over `k` of `lhs (r, k) · rhs (k, c)`. -/
theorem plainDot_apply {φ₁ φ₂ : FTy} (sched : HostSchedule) (lhs : FVec Ideal ⟨2, ![M, K]⟩ φ₁)
    (rhs : FVec Ideal ⟨2, ![K, N]⟩ φ₂) (r : Fin M) (c : Fin N) :
    FloatOps.dotGeneral (DotDims.plain M K N) none sched lhs rhs (ix2 r c)
      = ∑ k : Fin K, lhs (ix2 r k) * rhs (ix2 k c) := by
  rw [dotGeneral_eq_matmul_zero]
  exact Cert.PlainMatmul.plain_apply lhs rhs r c

/-- A block of rows: if row `p` of `Xb` is row `r` of `X`, and column `c` of `Wb` is column `c` of `W`, the matrix
    unit's product of the blocks at `(p, c)` is the host's product of the whole matrices at `(r, c)`. -/
theorem rowBlock_apply {Mb Mt : ℕ} {φ₁ φ₂ ψ₁ ψ₂ : FTy} (sched : HostSchedule)
    (X : FVec Ideal ⟨2, ![Mt, K]⟩ ψ₁) (W : FVec Ideal ⟨2, ![K, N]⟩ ψ₂)
    (Xb : FVec Ideal ⟨2, ![Mb, K]⟩ φ₁) (Wb : FVec Ideal ⟨2, ![K, N]⟩ φ₂) (p : Fin Mb) (c : Fin N) (r : Fin Mt)
    (hX : ∀ k : Fin K, Xb (ix2 p k) = X (ix2 r k)) (hW : ∀ k : Fin K, Wb (ix2 k c) = W (ix2 k c)) :
    FloatOps.matmul (DotDims.plain Mb K N) none Xb Wb (constant ⟨2, ![Mb, N]⟩ .f32 0x00000000#32) (ix2 p c)
      = FloatOps.dotGeneral (DotDims.plain Mt K N) none sched X W (ix2 r c) := by
  rw [Cert.PlainMatmul.plain_apply, plainDot_apply]
  exact Finset.sum_congr rfl fun k _ => by rw [hX k, hW k]

end Cert.RowBlockMatmul
-- ==== Proof.Dense1.lean ====
/-
  The first dense layer, as the kernel computes it: the product X·W₁ taken twenty rows-blocks at a time.

  The grid has 20 points; point t stages rows 5000·t … 5000·t + 4999 of the left matrix [100000, 128], the whole right
  matrix [128, 64], multiplies them on the matrix unit into a zero accumulator, and writes the [5000, 64] result back as
  rows 5000·t … 5000·t + 4999 of the output. A row of a matrix product depends on that row of the left factor only, so
  each written block is the same block of the whole product X·W₁, and the twenty blocks fill the output: after the
  region the output array IS the whole product, as the host's one contraction computes it. On the extended reals the
  rounding of both operands to bf16 on the way in is the identity.
-/
import proofs.«129518_j10282151706868_1_alg».proof.Proof.Gen.KernelIdeal.Frame
import proofs.«129518_j10282151706868_1_alg».proof.Proof.LibRowBlockMatmul
import Idealize.ShloMosaic.Lib.Pipeline.Value
import Idealize.ShloMosaic.Lib.ValueIdx

noncomputable section

namespace Cert.KernelIdeal.Dense1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product X·W of a [100000, 128] and a [128, 64] matrix, as the host's one contraction. -/
def product (X : FVec Ideal S100000x128 .f32) (W : FVec Ideal S128x64 .f32) : FVec Ideal S100000x64 .f32 :=
  FloatOps.dotGeneral (DotDims.plain 100000 128 64) none .single X W

/-- The body's result at (p, q), when row p of the staged left block is row r of X and the staged right block is W:
    entry (r, q) of the whole product. -/
theorem body_apply (X : FVec Ideal S100000x128 .f32) (W : FVec Ideal S128x64 .f32)
    (x0 : Vec Ideal S5000x128 .f32) (x1 : Vec Ideal S128x64 .f32) (p : Fin 5000) (q : Fin 64) (r : Fin 100000)
    (hX : ∀ k : Fin 128, x0 (ix2 p k) = X (ix2 r k)) (hW : ∀ k : Fin 128, x1 (ix2 k q) = W (ix2 k q)) :
    k0_pay1 x0 x1 (ix2 p q) = product X W (ix2 r q) := by
  unfold k0_pay1 product
  exact Cert.RowBlockMatmul.rowBlock_apply .single X W (truncf .bf16 x0 bitsLt_bf16_f32) (truncf .bf16 x1 bitsLt_bf16_f32)
    p q r hX hW

/-- The printed index maps over the 20 grid points: the left and the output windows move down the rows with the
    point, the right window stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the two arrays as the region finds them. -/
theorem flushed_eq (c : Dev nD) (t : Fin cfg0.N) :
    (dat0 V c).flushed 2 t
      = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := index_maps t
  have hN : t.val < 20 := t.isLt
  funext j
  obtain ⟨p, q, rfl⟩ : ∃ (p : Fin 5000) (q : Fin 64), j = ix2 p q := ⟨j 0, j 1, eq_ix2 j⟩
  have hr : t.val * 5000 + p.val < 100000 := by have := p.isLt; omega
  show k0_pay1 (iblk0 V c 0 t) (iblk0 V c 1 t) (ix2 p q)
    = product (V c main_arg0) (V c main_arg2) (((cfg0.win 2).blk t).view.emb (ix2 p q))
  have hemb : ((cfg0.win 2).blk t).view.emb (ix2 p q) = ix2 (⟨t.val * 5000 + p.val, hr⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  rw [hemb]
  refine body_apply (V c main_arg0) (V c main_arg2) (iblk0 V c 0 t) (iblk0 V c 1 t) p q ⟨t.val * 5000 + p.val, hr⟩
    (fun k => ?_) (fun k => ?_)
  · show V c main_arg0 (((cfg0.win 0).blk t).view.emb (ix2 p k)) = V c main_arg0 (ix2 ⟨t.val * 5000 + p.val, hr⟩ k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega

/-- An index of the output array is in point t's block iff its row is among the block's 5000 rows. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v30).slice (win0_2.rect t)).set ↔ _
  rw [View.set_slice_whole, Rect.mem_set_unit]
  exact Iff.rfl

/-- Every row of the output lies in the block of the point that its row number divided by 5000 names. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 5000 < cfg0.N := by rw [show cfg0.N = 20 from N_0]; omega
  refine ⟨⟨(i 0).val / 5000, ht⟩, flush0_2 _, ?_⟩
  obtain ⟨e0, e1, e2, e3, e4, e5⟩ := index_maps ⟨(i 0).val / 5000, ht⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val
      ∧ (i 1).val < win0_2.index ⟨(i 0).val / 5000, ht⟩ (1 : Fin 2) * 64 + 64
    rw [e5]; omega

/-- After the region the output array is the whole product of the two arrays the region found. -/
theorem final (c : Dev nD) :
    (dat0 V c).arrAt 2 cfg0.N = product (V c main_arg0) (V c main_arg2) :=
  (dat0 V c).arrAt_eq_of_cover 2 (product (V c main_arg0) (V c main_arg2)) (fun t _ => flushed_eq V c t) cover

end Cert.KernelIdeal.Dense1

end
-- ==== Proof.BiasRelu.lean ====
/-
  The first layer's bias and rectifier, as the kernel computes them: max(A + b, 0), twenty row-blocks at a time.

  Point t of the 20-point grid stages rows 5000·t … 5000·t + 4999 of the aggregated matrix A [100000, 64] and the whole
  bias row b [1, 64], adds the bias row to every staged row, takes the maximum with zero, and writes the [5000, 64]
  result back as the same rows of the output. The operation is entry by entry — entry (r, q) of the result is
  max(A(r, q) + b(0, q), 0) — so each written block is that block of the whole-array expression, and the twenty blocks
  fill the output: after the region the output array is max(A + b, 0) with b repeated down the rows, which is how the
  host writes the same thing (a broadcast of the row, an add, a maximum with a broadcast zero).
-/
import proofs.«129518_j10282151706868_1_alg».proof.Proof.Gen.KernelIdeal.Frame
import Idealize.ShloMosaic.Lib.Pipeline.Value
import Idealize.ShloMosaic.Lib.ValueIdx

noncomputable section

namespace Cert.KernelIdeal.BiasRelu

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A + b with the [1, 64] row b repeated down the 100000 rows, then the maximum with zero: the host's spelling. -/
def biasRelu (hb : S1x64.BroadcastsInDim S100000x64 ![0, 1]) (h0 : S_.BroadcastsInDim S100000x64 ![])
    (A : FVec Ideal S100000x64 .f32) (b : FVec Ideal S1x64 .f32) : FVec Ideal S100000x64 .f32 :=
  maximumf (addf A (broadcastInDim S100000x64 ![0, 1] hb b))
    (broadcastInDim S100000x64 ![] h0 (constant S_ .f32 0x00000000#32))

/-- The body's result at (p, q), when entry (p, q) of the staged block is entry (r, q) of A and the staged row is b:
    entry (r, q) of the whole-array expression. -/
theorem body_apply (hb : S1x64.BroadcastsInDim S100000x64 ![0, 1]) (h0 : S_.BroadcastsInDim S100000x64 ![])
    (A : FVec Ideal S100000x64 .f32) (b : FVec Ideal S1x64 .f32)
    (x0 : Vec Ideal S5000x64 .f32) (x1 : Vec Ideal S1x64 .f32) (p : Fin 5000) (q : Fin 64) (r : Fin 100000)
    (hA : x0 (ix2 p q) = A (ix2 r q)) (hB : x1 (ix2 0 q) = b (ix2 0 q)) :
    k1_pay1 x0 x1 (ix2 p q) = biasRelu hb h0 A b (ix2 r q) := by
  unfold k1_pay1 biasRelu
  rw [shapeCast_self, shapeCast_self, shapeCast_self]
  show FloatOps.maximumf (FloatOps.addf (x0 (ix2 p q)) (broadcastTo S5000x64 x1 broadcasts_S1x64_S5000x64 (ix2 p q)))
      (FloatOps.ofBits .f32 0x00000000#32)
    = FloatOps.maximumf (FloatOps.addf (A (ix2 r q)) (broadcastInDim S100000x64 ![0, 1] hb b (ix2 r q)))
      (FloatOps.ofBits .f32 0x00000000#32)
  rw [broadcastTo_apply x1 broadcasts_S1x64_S5000x64 (ix2 p q) (ix2 0 q) (fun a => match a with
      | ⟨0, _⟩ => by show 0 = if (1 : Nat) = 1 then 0 else _; rw [if_pos rfl]
      | ⟨1, _⟩ => by show q.val = if (64 : Nat) = 1 then 0 else q.val; rw [if_neg (by decide)]),
    broadcastInDim_apply _ hb b (ix2 r q) (ix2 0 q) (fun a => match a with
      | ⟨0, _⟩ => by show 0 = if (1 : Nat) = 1 then 0 else _; rw [if_pos rfl]
      | ⟨1, _⟩ => by show q.val = if (64 : Nat) = 1 then 0 else q.val; rw [if_neg (by decide)]),
    hA, hB]

/-- The printed index maps over the 20 grid points: the matrix and the output windows move down the rows with the
    point, the bias row's window stays. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array expression of the two arrays as the region finds them. -/
theorem flushed_eq (hb : S1x64.BroadcastsInDim S100000x64 ![0, 1]) (h0 : S_.BroadcastsInDim S100000x64 ![])
    (c : Dev nD) (t : Fin cfg1.N) :
    (dat1 V c).flushed 2 t
      = ((cfg1.win 2).blk t).view.read (Elt Ideal) (biasRelu hb h0 (V c main_v43) (V c main_v44)) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e0, e1, e2, e3, e4, e5⟩ := index_maps t
  have hN : t.val < 20 := t.isLt
  funext j
  obtain ⟨p, q, rfl⟩ : ∃ (p : Fin 5000) (q : Fin 64), j = ix2 p q := ⟨j 0, j 1, eq_ix2 j⟩
  have hr : t.val * 5000 + p.val < 100000 := by have := p.isLt; omega
  show k1_pay1 (iblk1 V c 0 t) (iblk1 V c 1 t) (ix2 p q)
    = biasRelu hb h0 (V c main_v43) (V c main_v44) (((cfg1.win 2).blk t).view.emb (ix2 p q))
  have hemb : ((cfg1.win 2).blk t).view.emb (ix2 p q) = ix2 (⟨t.val * 5000 + p.val, hr⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  rw [hemb]
  refine body_apply hb h0 (V c main_v43) (V c main_v44) (iblk1 V c 0 t) (iblk1 V c 1 t) p q ⟨t.val * 5000 + p.val, hr⟩ ?_ ?_
  · show V c main_v43 (((cfg1.win 0).blk t).view.emb (ix2 p q)) = V c main_v43 (ix2 ⟨t.val * 5000 + p.val, hr⟩ q)
    refine congrArg (V c main_v43) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * q.val = q.val; omega
  · show V c main_v44 (((cfg1.win 1).blk t).view.emb (ix2 0 q)) = V c main_v44 (ix2 0 q)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega

/-- An index of the output array is in point t's block iff its row is among the block's 5000 rows. -/
theorem mem_blk (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v45).slice (win1_2.rect t)).set ↔ _
  rw [View.set_slice_whole, Rect.mem_set_unit]
  exact Iff.rfl

/-- Every row of the output lies in the block of the point that its row number divided by 5000 names. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have ht : (i 0).val / 5000 < cfg1.N := by rw [show cfg1.N = 20 from N_1]; omega
  refine ⟨⟨(i 0).val / 5000, ht⟩, flush1_2 _, ?_⟩
  obtain ⟨e0, e1, e2, e3, e4, e5⟩ := index_maps ⟨(i 0).val / 5000, ht⟩
  rw [mem_blk]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    rw [e5]; omega

/-- After the region the output array is max(A + b, 0) of the two arrays the region found. -/
theorem final (hb : S1x64.BroadcastsInDim S100000x64 ![0, 1]) (h0 : S_.BroadcastsInDim S100000x64 ![]) (c : Dev nD) :
    (dat1 V c).arrAt 2 cfg1.N = biasRelu hb h0 (V c main_v43) (V c main_v44) :=
  (dat1 V c).arrAt_eq_of_cover 2 (biasRelu hb h0 (V c main_v43) (V c main_v44)) (fun t _ => flushed_eq V hb h0 c t) cover

end Cert.KernelIdeal.BiasRelu

end
-- ==== Proof.Dense2.lean ====
/-
  The second dense layer, as the kernel computes it: the product H·W₂ taken twenty row-blocks at a time.

  As for the first layer: point t of the 20-point grid stages rows 5000·t … 5000·t + 4999 of the left matrix
  [100000, 64] and the whole right matrix [64, 40], multiplies them into a zero accumulator and writes the [5000, 40]
  result back as the same rows of the output. Each written block is that block of the whole product, the twenty blocks
  fill the output, so after the region the output array is the whole product H·W₂ as the host's one contraction computes
  it (the rounding of both operands to bf16 is the identity on the extended reals).
-/
import proofs.«129518_j10282151706868_1_alg».proof.Proof.Gen.KernelIdeal.Frame
import proofs.«129518_j10282151706868_1_alg».proof.Proof.LibRowBlockMatmul
import Idealize.ShloMosaic.Lib.Pipeline.Value
import Idealize.ShloMosaic.Lib.ValueIdx

noncomputable section

namespace Cert.KernelIdeal.Dense2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product H·W of a [100000, 64] and a [64, 40] matrix, as the host's one contraction. -/
def product (X : FVec Ideal S100000x64 .f32) (W : FVec Ideal S64x40 .f32) : FVec Ideal S100000x40 .f32 :=
  FloatOps.dotGeneral (DotDims.plain 100000 64 40) none .single X W

/-- The body's result at (p, q), when row p of the staged left block is row r of X and the staged right block is W:
    entry (r, q) of the whole product. -/
theorem body_apply (X : FVec Ideal S100000x64 .f32) (W : FVec Ideal S64x40 .f32)
    (x0 : Vec Ideal S5000x64 .f32) (x1 : Vec Ideal S64x40 .f32) (p : Fin 5000) (q : Fin 40) (r : Fin 100000)
    (hX : ∀ k : Fin 64, x0 (ix2 p k) = X (ix2 r k)) (hW : ∀ k : Fin 64, x1 (ix2 k q) = W (ix2 k q)) :
    k2_pay1 x0 x1 (ix2 p q) = product X W (ix2 r q) := by
  unfold k2_pay1 product
  rw [shapeCast_self]
  exact Cert.RowBlockMatmul.rowBlock_apply .single X W (truncf .bf16 x0 bitsLt_bf16_f32) (truncf .bf16 x1 bitsLt_bf16_f32)
    p q r hX hW

/-- The printed index maps over the 20 grid points: the left and the output windows move down the rows with the
    point, the right window stays. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the two arrays as the region finds them. -/
theorem flushed_eq (c : Dev nD) (t : Fin cfg2.N) :
    (dat2 V c).flushed 2 t
      = ((cfg2.win 2).blk t).view.read (Elt Ideal) (product (V c main_v45) (V c main_arg4)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x40) hz]
  obtain ⟨e0, e1, e2, e3, e4, e5⟩ := index_maps t
  have hN : t.val < 20 := t.isLt
  funext j
  obtain ⟨p, q, rfl⟩ : ∃ (p : Fin 5000) (q : Fin 40), j = ix2 p q := ⟨j 0, j 1, eq_ix2 j⟩
  have hr : t.val * 5000 + p.val < 100000 := by have := p.isLt; omega
  show k2_pay1 (iblk2 V c 0 t) (iblk2 V c 1 t) (ix2 p q)
    = product (V c main_v45) (V c main_arg4) (((cfg2.win 2).blk t).view.emb (ix2 p q))
  have hemb : ((cfg2.win 2).blk t).view.emb (ix2 p q) = ix2 (⟨t.val * 5000 + p.val, hr⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 40 + 1 * q.val = q.val; omega
  rw [hemb]
  refine body_apply (V c main_v45) (V c main_arg4) (iblk2 V c 0 t) (iblk2 V c 1 t) p q ⟨t.val * 5000 + p.val, hr⟩
    (fun k => ?_) (fun k => ?_)
  · show V c main_v45 (((cfg2.win 0).blk t).view.emb (ix2 p k)) = V c main_v45 (ix2 ⟨t.val * 5000 + p.val, hr⟩ k)
    refine congrArg (V c main_v45) (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * k.val = k.val; omega
  · show V c main_arg4 (((cfg2.win 1).blk t).view.emb (ix2 k q)) = V c main_arg4 (ix2 k q)
    refine congrArg (V c main_arg4) (funext fun a => Fin.ext ?_)
    match a with
    | ⟨0, _⟩ => show win2_1.index t (0 : Fin 2) * 64 + 1 * k.val = k.val; omega
    | ⟨1, _⟩ => show win2_1.index t (1 : Fin 2) * 40 + 1 * q.val = q.val; omega

/-- An index of the output array is in point t's block iff its row is among the block's 5000 rows. -/
theorem mem_blk (t : Fin cfg2.N) (i : S100000x40.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v46).slice (win2_2.rect t)).set ↔ _
  rw [View.set_slice_whole, Rect.mem_set_unit]
  exact Iff.rfl

/-- Every row of the output lies in the block of the point that its row number divided by 5000 names. -/
theorem cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have ht : (i 0).val / 5000 < cfg2.N := by rw [show cfg2.N = 20 from N_2]; omega
  refine ⟨⟨(i 0).val / 5000, ht⟩, flush2_2 _, ?_⟩
  obtain ⟨e0, e1, e2, e3, e4, e5⟩ := index_maps ⟨(i 0).val / 5000, ht⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 40 ≤ (i 1).val
      ∧ (i 1).val < win2_2.index ⟨(i 0).val / 5000, ht⟩ (1 : Fin 2) * 40 + 40
    rw [e5]; omega

/-- After the region the output array is the whole product of the two arrays the region found. -/
theorem final (c : Dev nD) :
    (dat2 V c).arrAt 2 cfg2.N = product (V c main_v45) (V c main_arg4) :=
  (dat2 V c).arrAt_eq_of_cover 2 (product (V c main_v45) (V c main_arg4)) (fun t _ => flushed_eq V c t) cover

end Cert.KernelIdeal.Dense2

end
-- ==== Proof.Bias.lean ====
/-
  The second layer's bias, as the kernel computes it: A + b, twenty row-blocks at a time.

  Point t of the 20-point grid stages rows 5000·t … 5000·t + 4999 of the aggregated matrix A [100000, 40] and the whole
  bias row b [1, 40], adds the bias row to every staged row, and writes the [5000, 40] result back as the same rows of
  the output. Entry (r, q) of the result is A(r, q) + b(0, q), so each written block is that block of the whole-array
  sum, and the twenty blocks fill the output: after the region the output array is A + b with b repeated down the
  rows, which is how the host writes the same thing (a broadcast of the row, an add).
-/
import proofs.«129518_j10282151706868_1_alg».proof.Proof.Gen.KernelIdeal.Frame
import Idealize.ShloMosaic.Lib.Pipeline.Value
import Idealize.ShloMosaic.Lib.ValueIdx

noncomputable section

namespace Cert.KernelIdeal.Bias

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A + b with the [1, 40] row b repeated down the 100000 rows: the host's spelling. -/
def addBias (hb : S1x40.BroadcastsInDim S100000x40 ![0, 1])
    (A : FVec Ideal S100000x40 .f32) (b : FVec Ideal S1x40 .f32) : FVec Ideal S100000x40 .f32 :=
  addf A (broadcastInDim S100000x40 ![0, 1] hb b)

/-- The body's result at (p, q), when entry (p, q) of the staged block is entry (r, q) of A and the staged row is b:
    entry (r, q) of the whole-array expression. -/
theorem body_apply (hb : S1x40.BroadcastsInDim S100000x40 ![0, 1])
    (A : FVec Ideal S100000x40 .f32) (b : FVec Ideal S1x40 .f32)
    (x0 : Vec Ideal S5000x40 .f32) (x1 : Vec Ideal S1x40 .f32) (p : Fin 5000) (q : Fin 40) (r : Fin 100000)
    (hA : x0 (ix2 p q) = A (ix2 r q)) (hB : x1 (ix2 0 q) = b (ix2 0 q)) :
    k3_pay1 x0 x1 (ix2 p q) = addBias hb A b (ix2 r q) := by
  unfold k3_pay1 addBias
  rw [shapeCast_self, shapeCast_self, shapeCast_self]
  show FloatOps.addf (x0 (ix2 p q)) (broadcastTo S5000x40 x1 broadcasts_S1x40_S5000x40 (ix2 p q))
    = FloatOps.addf (A (ix2 r q)) (broadcastInDim S100000x40 ![0, 1] hb b (ix2 r q))
  rw [broadcastTo_apply x1 broadcasts_S1x40_S5000x40 (ix2 p q) (ix2 0 q) (fun a => match a with
      | ⟨0, _⟩ => by show 0 = if (1 : Nat) = 1 then 0 else _; rw [if_pos rfl]
      | ⟨1, _⟩ => by show q.val = if (40 : Nat) = 1 then 0 else q.val; rw [if_neg (by decide)]),
    broadcastInDim_apply _ hb b (ix2 r q) (ix2 0 q) (fun a => match a with
      | ⟨0, _⟩ => by show 0 = if (1 : Nat) = 1 then 0 else _; rw [if_pos rfl]
      | ⟨1, _⟩ => by show q.val = if (40 : Nat) = 1 then 0 else q.val; rw [if_neg (by decide)]),
    hA, hB]

/-- The printed index maps over the 20 grid points: the matrix and the output windows move down the rows with the
    point, the bias row's window stays. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array expression of the two arrays as the region finds them. -/
theorem flushed_eq (hb : S1x40.BroadcastsInDim S100000x40 ![0, 1])
    (c : Dev nD) (t : Fin cfg3.N) :
    (dat3 V c).flushed 2 t
      = ((cfg3.win 2).blk t).view.read (Elt Ideal) (addBias hb (V c main_v59) (V c main_v60)) := by
  show (cfg3.win 2).cut (grid3.coords t) ((dat3 V c).after 2 t) = _
  rw [after3_2]
  unfold out3_2
  rw [View.canon_unit_zero hz]
  simp only [View.ld_unit_zero (S := S5000x40) hz, View.ld_unit_zero (S := S1x40) hz]
  obtain ⟨e0, e1, e2, e3, e4, e5⟩ := index_maps t
  have hN : t.val < 20 := t.isLt
  funext j
  obtain ⟨p, q, rfl⟩ : ∃ (p : Fin 5000) (q : Fin 40), j = ix2 p q := ⟨j 0, j 1, eq_ix2 j⟩
  have hr : t.val * 5000 + p.val < 100000 := by have := p.isLt; omega
  show k3_pay1 (iblk3 V c 0 t) (iblk3 V c 1 t) (ix2 p q)
    = addBias hb (V c main_v59) (V c main_v60) (((cfg3.win 2).blk t).view.emb (ix2 p q))
  have hemb : ((cfg3.win 2).blk t).view.emb (ix2 p q) = ix2 (⟨t.val * 5000 + p.val, hr⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 40 + 1 * q.val = q.val; omega
  rw [hemb]
  refine body_apply hb (V c main_v59) (V c main_v60) (iblk3 V c 0 t) (iblk3 V c 1 t) p q ⟨t.val * 5000 + p.val, hr⟩ ?_ ?_
  · show V c main_v59 (((cfg3.win 0).blk t).view.emb (ix2 p q)) = V c main_v59 (ix2 ⟨t.val * 5000 + p.val, hr⟩ q)
    refine congrArg (V c main_v59) (funext fun a => Fin.ext ?_)
    match a with
    | ⟨0, _⟩ => show win3_0.index t (0 : Fin 2) * 5000 + 1 * p.val = t.val * 5000 + p.val; omega
    | ⟨1, _⟩ => show win3_0.index t (1 : Fin 2) * 40 + 1 * q.val = q.val; omega
  · show V c main_v60 (((cfg3.win 1).blk t).view.emb (ix2 0 q)) = V c main_v60 (ix2 0 q)
    refine congrArg (V c main_v60) (funext fun a => Fin.ext ?_)
    match a with
    | ⟨0, _⟩ => show win3_1.index t (0 : Fin 2) * 1 + 1 * 0 = 0; omega
    | ⟨1, _⟩ => show win3_1.index t (1 : Fin 2) * 40 + 1 * q.val = q.val; omega

/-- An index of the output array is in point t's block iff its row is among the block's 5000 rows. -/
theorem mem_blk (t : Fin cfg3.N) (i : S100000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v61).slice (win3_2.rect t)).set ↔ _
  rw [View.set_slice_whole, Rect.mem_set_unit]
  exact Iff.rfl

/-- Every row of the output lies in the block of the point that its row number divided by 5000 names. -/
theorem cover (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  have ht : (i 0).val / 5000 < cfg3.N := by rw [show cfg3.N = 20 from N_3]; omega
  refine ⟨⟨(i 0).val / 5000, ht⟩, flush3_2 _, ?_⟩
  obtain ⟨e0, e1, e2, e3, e4, e5⟩ := index_maps ⟨(i 0).val / 5000, ht⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 40 ≤ (i 1).val
      ∧ (i 1).val < win3_2.index ⟨(i 0).val / 5000, ht⟩ (1 : Fin 2) * 40 + 40
    rw [e5]; omega

/-- After the region the output array is A + b of the two arrays the region found. -/
theorem final (hb : S1x40.BroadcastsInDim S100000x40 ![0, 1]) (c : Dev nD) :
    (dat3 V c).arrAt 2 cfg3.N = addBias hb (V c main_v59) (V c main_v60) :=
  (dat3 V c).arrAt_eq_of_cover 2 (addBias hb (V c main_v59) (V c main_v60)) (fun t _ => flushed_eq V hb c t) cover

end Cert.KernelIdeal.Bias

end
-- ==== Proof.HostGlue.lean ====
/-
  The kernel program's result, read off the contents of its buffers at the nine segment boundaries.

  Walking from the launch memory: the three first stretches of host operations leave the edge lists with self-loops
  (rows, cols) and the symmetric edge weights (norm) in three buffers that nothing later overwrites; the first region
  leaves X·W₁; the next stretch aggregates it over the edges and reshapes the bias b₁ to a row; the second region
  leaves max(aggregate + b₁, 0); the third region leaves its product with W₂; the last stretch aggregates that and
  reshapes b₂; the last region adds b₂. A region changes only its own three arrays and a stretch only the buffers its
  operations write, so a buffer written once is read unchanged at every later boundary. Each lemma below reads one
  buffer at one boundary; the last one is the result buffer after the last region, the whole network as one term of
  the six argument arrays, with the host pieces named as in Spec.lean.
-/
import proofs.«129518_j10282151706868_1_alg».proof.Proof.Gen.KernelIdeal.Frame
import proofs.«129518_j10282151706868_1_alg».proof.Proof.Spec
import proofs.«129518_j10282151706868_1_alg».proof.Proof.Dense1
import proofs.«129518_j10282151706868_1_alg».proof.Proof.BiasRelu
import proofs.«129518_j10282151706868_1_alg».proof.Proof.Dense2
import proofs.«129518_j10282151706868_1_alg».proof.Proof.Bias
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first region: the edge lists, the degrees, the edge weights, the arguments -/

/-! After the first stretch: the edge lists with self-loops, and what the selection of the positive degrees reads. -/

theorem W1_positive : W1 m ρ c (Proc.devRef .tc main_v12)
    = cmpf (F := Ideal) .ogt (Cert.ReferenceIdeal.Spec.deg (m ((c.tc : Thread nD τ).loc main_arg1))) (broadcastInDim Cert.ReferenceIdeal.S100000 ![] Cert.ReferenceIdeal.Gen.bcast_S_S100000 (constant (F := Ideal) Cert.ReferenceIdeal.S_ .f32 0x00000000#32)) := by
  dsimp only [W1, W0, hostOps0]
  after_results_simp <;> rfl

theorem W1_rsqrt : W1 m ρ c (Proc.devRef .tc main_v13) = Host.rsqrt (Cert.ReferenceIdeal.Spec.deg (m ((c.tc : Thread nD τ).loc main_arg1))) := by
  dsimp only [W1, W0, hostOps0]
  after_results_simp <;> rfl

theorem W1_zero : W1 m ρ c (Proc.devRef .tc main_cst_2) = constant (F := Ideal) Cert.ReferenceIdeal.S_ .f32 0x00000000#32 := by
  dsimp only [W1, W0, hostOps0]
  after_results_simp <;> rfl

/-- The selection of the positive degrees, from any contents: the second operand where the mask holds, the third's
    splat elsewhere. -/
theorem where_step (X : Valuation τ sig (Elt Ideal)) :
    StableHlo.after hostOps0_1 X (Proc.devRef .tc main_v14)
      = select (X (Proc.devRef .tc main_v12)) (X (Proc.devRef .tc main_v13))
          (broadcastInDim Cert.ReferenceIdeal.S100000 ![] Cert.ReferenceIdeal.Gen.bcast_S_S100000 (id (X (Proc.devRef .tc main_cst_2)))) := by
  dsimp only [hostOps0_1]
  after_results_simp <;> rfl

/-! After the selection: deg^(-1/2), 0 where the degree is not positive; the edge lists kept. -/

theorem W2_dinv : W2 m ρ c (Proc.devRef .tc main_v14) = Cert.ReferenceIdeal.Spec.dinv (m ((c.tc : Thread nD τ).loc main_arg1)) := by
  show StableHlo.after hostOps0_1 (W1 m ρ c) (Proc.devRef .tc main_v14) = _
  rw [where_step, W1_positive, W1_rsqrt, W1_zero]
  rfl

theorem W2_rows : W2 m ρ c (Proc.devRef .tc main_v5) = Cert.ReferenceIdeal.Spec.rows (m ((c.tc : Thread nD τ).loc main_arg1)) := by
  dsimp only [W2, W1, W0, hostOps0, hostOps0_1]
  after_results_simp <;> rfl

theorem W2_cols : W2 m ρ c (Proc.devRef .tc main_v6) = Cert.ReferenceIdeal.Spec.cols (m ((c.tc : Thread nD τ).loc main_arg1)) := by
  dsimp only [W2, W1, W0, hostOps0, hostOps0_1]
  after_results_simp <;> rfl

/-- The weights, from any contents: the inverse square roots gathered at the sources times those at the targets. -/
theorem norm_step (Z : Valuation τ sig (Elt Ideal)) :
    StableHlo.after hostOps0_2 Z (Proc.devRef .tc main_v29)
      = (mulf (Host.gather Cert.ReferenceIdeal.gather_S100000_S1700000x1_S1700000_n_0_n_n_0_1_1 (Z (Proc.devRef .tc main_v14))
            (Cert.ReferenceIdeal.Spec.pick (Z (Proc.devRef .tc main_v5))))
          (Host.gather Cert.ReferenceIdeal.gather_S100000_S1700000x1_S1700000_n_0_n_n_0_1_1 (Z (Proc.devRef .tc main_v14))
            (Cert.ReferenceIdeal.Spec.pick (Z (Proc.devRef .tc main_v6)))) : FVec Ideal Cert.ReferenceIdeal.S1700000 .f32) := by
  dsimp only [hostOps0_2]
  after_results_simp <;> rfl

/-! After the third stretch: the symmetric weight of every edge; the edge lists and the arguments kept. -/

theorem W3_norm : W3 m ρ c (Proc.devRef .tc main_v29) = Cert.ReferenceIdeal.Spec.norm (m ((c.tc : Thread nD τ).loc main_arg1)) := by
  show StableHlo.after hostOps0_2 (W2 m ρ c) (Proc.devRef .tc main_v29) = _
  rw [norm_step, W2_dinv, W2_rows, W2_cols]
  rfl

theorem W3_rows : W3 m ρ c (Proc.devRef .tc main_v5) = Cert.ReferenceIdeal.Spec.rows (m ((c.tc : Thread nD τ).loc main_arg1)) := by
  dsimp only [W3, W2, W1, W0, hostOps0, hostOps0_1, hostOps0_2]
  after_results_simp <;> rfl

theorem W3_cols : W3 m ρ c (Proc.devRef .tc main_v6) = Cert.ReferenceIdeal.Spec.cols (m ((c.tc : Thread nD τ).loc main_arg1)) := by
  dsimp only [W3, W2, W1, W0, hostOps0, hostOps0_1, hostOps0_2]
  after_results_simp <;> rfl

theorem W3_arg0 : W3 m ρ c (Proc.devRef .tc main_arg0) = (m ((c.tc : Thread nD τ).loc main_arg0)) := by
  dsimp only [W3, W2, W1, W0, hostOps0, hostOps0_1, hostOps0_2]
  after_results_simp <;> rfl

theorem W3_arg2 : W3 m ρ c (Proc.devRef .tc main_arg2) = (m ((c.tc : Thread nD τ).loc main_arg2)) := by
  dsimp only [W3, W2, W1, W0, hostOps0, hostOps0_1, hostOps0_2]
  after_results_simp <;> rfl

theorem W3_arg3 : W3 m ρ c (Proc.devRef .tc main_arg3) = (m ((c.tc : Thread nD τ).loc main_arg3)) := by
  dsimp only [W3, W2, W1, W0, hostOps0, hostOps0_1, hostOps0_2]
  after_results_simp <;> rfl

theorem W3_arg4 : W3 m ρ c (Proc.devRef .tc main_arg4) = (m ((c.tc : Thread nD τ).loc main_arg4)) := by
  dsimp only [W3, W2, W1, W0, hostOps0, hostOps0_1, hostOps0_2]
  after_results_simp <;> rfl

theorem W3_arg5 : W3 m ρ c (Proc.devRef .tc main_arg5) = (m ((c.tc : Thread nD τ).loc main_arg5)) := by
  dsimp only [W3, W2, W1, W0, hostOps0, hostOps0_1, hostOps0_2]
  after_results_simp <;> rfl

/-! ## After the first region: X·W₁ in its output array, everything else kept -/

theorem W4_prod : W4 m ρ c (Proc.devRef .tc main_v30) = (Dense1.product (m ((c.tc : Thread nD τ).loc main_arg0)) (m ((c.tc : Thread nD τ).loc main_arg2))) := by
  refine (W4_arr m ρ c 2).trans ((Dense1.final (V3 m ρ) c).trans ?_)
  show Dense1.product (W3 m ρ c (Proc.devRef .tc main_arg0)) (W3 m ρ c (Proc.devRef .tc main_arg2)) = _
  rw [W3_arg0, W3_arg2]

theorem W4_rows : W4 m ρ c (Proc.devRef .tc main_v5) = Cert.ReferenceIdeal.Spec.rows (m ((c.tc : Thread nD τ).loc main_arg1)) :=
  (W4_of_ne m ρ c main_v5 (by decide)).trans (W3_rows m ρ c)

theorem W4_cols : W4 m ρ c (Proc.devRef .tc main_v6) = Cert.ReferenceIdeal.Spec.cols (m ((c.tc : Thread nD τ).loc main_arg1)) :=
  (W4_of_ne m ρ c main_v6 (by decide)).trans (W3_cols m ρ c)

theorem W4_norm : W4 m ρ c (Proc.devRef .tc main_v29) = Cert.ReferenceIdeal.Spec.norm (m ((c.tc : Thread nD τ).loc main_arg1)) :=
  (W4_of_ne m ρ c main_v29 (by decide)).trans (W3_norm m ρ c)

theorem W4_arg3 : W4 m ρ c (Proc.devRef .tc main_arg3) = (m ((c.tc : Thread nD τ).loc main_arg3)) :=
  (W4_of_ne m ρ c main_arg3 (by decide)).trans (W3_arg3 m ρ c)

theorem W4_arg4 : W4 m ρ c (Proc.devRef .tc main_arg4) = (m ((c.tc : Thread nD τ).loc main_arg4)) :=
  (W4_of_ne m ρ c main_arg4 (by decide)).trans (W3_arg4 m ρ c)

theorem W4_arg5 : W4 m ρ c (Proc.devRef .tc main_arg5) = (m ((c.tc : Thread nD τ).loc main_arg5)) :=
  (W4_of_ne m ρ c main_arg5 (by decide)).trans (W3_arg5 m ρ c)

/-! ## After the next stretch: the first aggregation, the first bias as a row -/

theorem W5_agg : W5 m ρ c (Proc.devRef .tc main_v43) = (Cert.ReferenceIdeal.Spec.agg64 (m ((c.tc : Thread nD τ).loc main_arg1)) (Dense1.product (m ((c.tc : Thread nD τ).loc main_arg0)) (m ((c.tc : Thread nD τ).loc main_arg2)))) := by
  dsimp only [W5, hostOps1]
  after_results_simp
  rw [W4_rows, W4_cols, W4_norm, W4_prod]
  rfl

theorem W5_bias : W5 m ρ c (Proc.devRef .tc main_v44) = (shapeCast S1x64 (m ((c.tc : Thread nD τ).loc main_arg3)) shapeCasts_S64_S1x64) := by
  dsimp only [W5, hostOps1]
  after_results_simp
  rw [W4_arg3]
  rfl

theorem W5_rows : W5 m ρ c (Proc.devRef .tc main_v5) = Cert.ReferenceIdeal.Spec.rows (m ((c.tc : Thread nD τ).loc main_arg1)) := by
  dsimp only [W5, hostOps1]
  after_results_simp
  exact W4_rows m ρ c

theorem W5_cols : W5 m ρ c (Proc.devRef .tc main_v6) = Cert.ReferenceIdeal.Spec.cols (m ((c.tc : Thread nD τ).loc main_arg1)) := by
  dsimp only [W5, hostOps1]
  after_results_simp
  exact W4_cols m ρ c

theorem W5_norm : W5 m ρ c (Proc.devRef .tc main_v29) = Cert.ReferenceIdeal.Spec.norm (m ((c.tc : Thread nD τ).loc main_arg1)) := by
  dsimp only [W5, hostOps1]
  after_results_simp
  exact W4_norm m ρ c

theorem W5_arg4 : W5 m ρ c (Proc.devRef .tc main_arg4) = (m ((c.tc : Thread nD τ).loc main_arg4)) := by
  dsimp only [W5, hostOps1]
  after_results_simp
  exact W4_arg4 m ρ c

theorem W5_arg5 : W5 m ρ c (Proc.devRef .tc main_arg5) = (m ((c.tc : Thread nD τ).loc main_arg5)) := by
  dsimp only [W5, hostOps1]
  after_results_simp
  exact W4_arg5 m ρ c

/-! ## After the second region: max(aggregate + b₁, 0) -/

theorem W6_act (hb64 : S1x64.BroadcastsInDim S100000x64 ![0, 1]) (h0 : S_.BroadcastsInDim S100000x64 ![]) :
    W6 m ρ c (Proc.devRef .tc main_v45) = (BiasRelu.biasRelu hb64 h0 (Cert.ReferenceIdeal.Spec.agg64 (m ((c.tc : Thread nD τ).loc main_arg1)) (Dense1.product (m ((c.tc : Thread nD τ).loc main_arg0)) (m ((c.tc : Thread nD τ).loc main_arg2)))) (shapeCast S1x64 (m ((c.tc : Thread nD τ).loc main_arg3)) shapeCasts_S64_S1x64)) := by
  refine (W6_arr m ρ c 2).trans ((BiasRelu.final (V5 m ρ) hb64 h0 c).trans ?_)
  show BiasRelu.biasRelu hb64 h0 (W5 m ρ c (Proc.devRef .tc main_v43)) (W5 m ρ c (Proc.devRef .tc main_v44)) = _
  rw [W5_agg, W5_bias]

theorem W6_rows : W6 m ρ c (Proc.devRef .tc main_v5) = Cert.ReferenceIdeal.Spec.rows (m ((c.tc : Thread nD τ).loc main_arg1)) :=
  (W6_of_ne m ρ c main_v5 (by decide)).trans (W5_rows m ρ c)

theorem W6_cols : W6 m ρ c (Proc.devRef .tc main_v6) = Cert.ReferenceIdeal.Spec.cols (m ((c.tc : Thread nD τ).loc main_arg1)) :=
  (W6_of_ne m ρ c main_v6 (by decide)).trans (W5_cols m ρ c)

theorem W6_norm : W6 m ρ c (Proc.devRef .tc main_v29) = Cert.ReferenceIdeal.Spec.norm (m ((c.tc : Thread nD τ).loc main_arg1)) :=
  (W6_of_ne m ρ c main_v29 (by decide)).trans (W5_norm m ρ c)

theorem W6_arg4 : W6 m ρ c (Proc.devRef .tc main_arg4) = (m ((c.tc : Thread nD τ).loc main_arg4)) :=
  (W6_of_ne m ρ c main_arg4 (by decide)).trans (W5_arg4 m ρ c)

theorem W6_arg5 : W6 m ρ c (Proc.devRef .tc main_arg5) = (m ((c.tc : Thread nD τ).loc main_arg5)) :=
  (W6_of_ne m ρ c main_arg5 (by decide)).trans (W5_arg5 m ρ c)

/-! ## After the third region: the product with W₂ -/

theorem W7_prod (hb64 : S1x64.BroadcastsInDim S100000x64 ![0, 1]) (h0 : S_.BroadcastsInDim S100000x64 ![]) :
    W7 m ρ c (Proc.devRef .tc main_v46) = (Dense2.product (BiasRelu.biasRelu hb64 h0 (Cert.ReferenceIdeal.Spec.agg64 (m ((c.tc : Thread nD τ).loc main_arg1)) (Dense1.product (m ((c.tc : Thread nD τ).loc main_arg0)) (m ((c.tc : Thread nD τ).loc main_arg2)))) (shapeCast S1x64 (m ((c.tc : Thread nD τ).loc main_arg3)) shapeCasts_S64_S1x64)) (m ((c.tc : Thread nD τ).loc main_arg4))) := by
  refine (W7_arr m ρ c 2).trans ((Dense2.final (V6 m ρ) c).trans ?_)
  show Dense2.product (W6 m ρ c (Proc.devRef .tc main_v45)) (W6 m ρ c (Proc.devRef .tc main_arg4)) = _
  rw [W6_act m ρ c hb64 h0, W6_arg4]

theorem W7_rows : W7 m ρ c (Proc.devRef .tc main_v5) = Cert.ReferenceIdeal.Spec.rows (m ((c.tc : Thread nD τ).loc main_arg1)) :=
  (W7_of_ne m ρ c main_v5 (by decide)).trans (W6_rows m ρ c)

theorem W7_cols : W7 m ρ c (Proc.devRef .tc main_v6) = Cert.ReferenceIdeal.Spec.cols (m ((c.tc : Thread nD τ).loc main_arg1)) :=
  (W7_of_ne m ρ c main_v6 (by decide)).trans (W6_cols m ρ c)

theorem W7_norm : W7 m ρ c (Proc.devRef .tc main_v29) = Cert.ReferenceIdeal.Spec.norm (m ((c.tc : Thread nD τ).loc main_arg1)) :=
  (W7_of_ne m ρ c main_v29 (by decide)).trans (W6_norm m ρ c)

theorem W7_arg5 : W7 m ρ c (Proc.devRef .tc main_arg5) = (m ((c.tc : Thread nD τ).loc main_arg5)) :=
  (W7_of_ne m ρ c main_arg5 (by decide)).trans (W6_arg5 m ρ c)

/-! ## After the last stretch: the second aggregation, the second bias as a row -/

theorem W8_agg (hb64 : S1x64.BroadcastsInDim S100000x64 ![0, 1]) (h0 : S_.BroadcastsInDim S100000x64 ![]) :
    W8 m ρ c (Proc.devRef .tc main_v59) = (Cert.ReferenceIdeal.Spec.agg40 (m ((c.tc : Thread nD τ).loc main_arg1)) (Dense2.product (BiasRelu.biasRelu hb64 h0 (Cert.ReferenceIdeal.Spec.agg64 (m ((c.tc : Thread nD τ).loc main_arg1)) (Dense1.product (m ((c.tc : Thread nD τ).loc main_arg0)) (m ((c.tc : Thread nD τ).loc main_arg2)))) (shapeCast S1x64 (m ((c.tc : Thread nD τ).loc main_arg3)) shapeCasts_S64_S1x64)) (m ((c.tc : Thread nD τ).loc main_arg4)))) := by
  dsimp only [W8, hostOps3]
  after_results_simp
  rw [W7_rows, W7_cols, W7_norm, W7_prod m ρ c hb64 h0]
  rfl

theorem W8_bias : W8 m ρ c (Proc.devRef .tc main_v60) = (shapeCast S1x40 (m ((c.tc : Thread nD τ).loc main_arg5)) shapeCasts_S40_S1x40) := by
  dsimp only [W8, hostOps3]
  after_results_simp
  rw [W7_arg5]
  rfl

/-! ## After the last region: the result -/

/-- The result buffer after the last region: the whole network as one term of the six argument arrays. -/
theorem W9_out (hb64 : S1x64.BroadcastsInDim S100000x64 ![0, 1]) (h0 : S_.BroadcastsInDim S100000x64 ![])
    (hb40 : S1x40.BroadcastsInDim S100000x40 ![0, 1]) :
    W9 m ρ c (Proc.devRef .tc main_v61) = (Bias.addBias hb40 (Cert.ReferenceIdeal.Spec.agg40 (m ((c.tc : Thread nD τ).loc main_arg1)) (Dense2.product (BiasRelu.biasRelu hb64 h0 (Cert.ReferenceIdeal.Spec.agg64 (m ((c.tc : Thread nD τ).loc main_arg1)) (Dense1.product (m ((c.tc : Thread nD τ).loc main_arg0)) (m ((c.tc : Thread nD τ).loc main_arg2)))) (shapeCast S1x64 (m ((c.tc : Thread nD τ).loc main_arg3)) shapeCasts_S64_S1x64)) (m ((c.tc : Thread nD τ).loc main_arg4)))) (shapeCast S1x40 (m ((c.tc : Thread nD τ).loc main_arg5)) shapeCasts_S40_S1x40)) := by
  refine (W9_arr m ρ c 2).trans ((Bias.final (V8 m ρ) hb40 c).trans ?_)
  show Bias.addBias hb40 (W8 m ρ c (Proc.devRef .tc main_v59)) (W8 m ρ c (Proc.devRef .tc main_v60)) = _
  rw [W8_agg m ρ c hb64 h0, W8_bias]

end Cert.KernelIdeal.Whole

end
-- ==== Proof.LibRowVector.lean ====
/-
  A vector seen as a one-row matrix, two ways.

  A vector v of extent n becomes the 1×n matrix whose only row is v either by a reshape (the n entries in row-major
  order are the same n entries) or by a broadcast that places the vector's axis on the matrix's second axis. Both read
  entry (0, k) of the matrix as v k, so the two matrices are equal — at any extent n other than 1 (at n = 1 the
  broadcast's rule for an axis of extent one applies instead, and is not needed here). Stated over any entry type.
-/
import Idealize.ShloMosaic.Lib.Pipeline.Value

namespace Cert.RowVector

open Idealize.ShloMosaic

/-- The reshape of a vector of extent n to the 1×n matrix is the broadcast of the vector along the matrix's second
    axis: both have the vector as their only row. -/
theorem shapeCast_eq_broadcastInDim {α : Type} {n : ℕ} (hn : n ≠ 1) (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v hc = broadcastInDim ⟨2, ![1, n]⟩ ![1] hb v := by
  funext j
  refine (shapeCast_addUnit_apply ![n] v hc j).trans ?_
  exact (broadcastInDim_apply (![1] : Fin 1 → Fin 2) hb v j (fun a => j a.succ) (fun a => by
    match a with
    | ⟨0, _⟩ => show (j 1).val = if n = 1 then 0 else (j 1).val; rw [if_neg hn])).symm

end Cert.RowVector
-- ==== Proof.Bridge.lean ====
/-
  The kernel's term and the reference's term are one function of the six arguments.

  Read off its buffers, the kernel program's result is  addBias (agg40 (product₂ (biasRelu (agg64 (product₁ X W₁)) b₁ʳ) W₂)) b₂ʳ
  where product₁, product₂ are the host's plain contractions (what the row-blocked regions leave), biasRelu and addBias are
  the host's broadcast-add(-maximum) spellings (what the entrywise regions leave), agg64 and agg40 are the reference's own
  aggregations, and b₁ʳ, b₂ʳ are the bias vectors RESHAPED to one-row matrices. The reference's result is the same
  composition with the bias vectors BROADCAST into one-row matrices. A vector reshaped to a row and a vector broadcast
  into a row are the same row, so the two terms are equal; no property of the extended reals is used, and no input need
  be finite.
-/
import proofs.«129518_j10282151706868_1_alg».proof.Proof.Spec
import proofs.«129518_j10282151706868_1_alg».proof.Proof.Dense1
import proofs.«129518_j10282151706868_1_alg».proof.Proof.BiasRelu
import proofs.«129518_j10282151706868_1_alg».proof.Proof.Dense2
import proofs.«129518_j10282151706868_1_alg».proof.Proof.Bias
import proofs.«129518_j10282151706868_1_alg».proof.Proof.LibRowVector

set_option maxRecDepth 16384

noncomputable section

namespace Cert.KernelIdeal.Whole

open Cert.KernelIdeal Cert.KernelIdeal.Gen
open Idealize.ShloMosaic Idealize.ShloMosaic.TcCoe

/-- The bias of the first layer as a one-row matrix: reshaped, or broadcast along the second axis. -/
theorem row64 (b : FVec Ideal S64 .f32) :
    shapeCast S1x64 b shapeCasts_S64_S1x64
      = broadcastInDim Cert.ReferenceIdeal.S1x64 ![1] Cert.ReferenceIdeal.Gen.bcast_S64_S1x64_1 b :=
  Cert.RowVector.shapeCast_eq_broadcastInDim (n := 64) (by decide) b shapeCasts_S64_S1x64
    Cert.ReferenceIdeal.Gen.bcast_S64_S1x64_1

/-- The bias of the second layer as a one-row matrix: reshaped, or broadcast along the second axis. -/
theorem row40 (b : FVec Ideal S40 .f32) :
    shapeCast S1x40 b shapeCasts_S40_S1x40
      = broadcastInDim Cert.ReferenceIdeal.S1x40 ![1] Cert.ReferenceIdeal.Gen.bcast_S40_S1x40_1 b :=
  Cert.RowVector.shapeCast_eq_broadcastInDim (n := 40) (by decide) b shapeCasts_S40_S1x40
    Cert.ReferenceIdeal.Gen.bcast_S40_S1x40_1

/-- The kernel's composition is the reference's network. -/
theorem network_eq (hb64 : S1x64.BroadcastsInDim S100000x64 ![0, 1]) (h0 : S_.BroadcastsInDim S100000x64 ![])
    (hb40 : S1x40.BroadcastsInDim S100000x40 ![0, 1])
    (x : FVec Ideal S100000x128 .f32) (e : IVec S2x1600000 32) (W1 : FVec Ideal S128x64 .f32) (b1 : FVec Ideal S64 .f32)
    (W2 : FVec Ideal S64x40 .f32) (b2 : FVec Ideal S40 .f32) :
    Bias.addBias hb40 (Cert.ReferenceIdeal.Spec.agg40 e (Dense2.product (BiasRelu.biasRelu hb64 h0
        (Cert.ReferenceIdeal.Spec.agg64 e (Dense1.product x W1)) (shapeCast S1x64 b1 shapeCasts_S64_S1x64)) W2))
        (shapeCast S1x40 b2 shapeCasts_S40_S1x40)
      = Cert.ReferenceIdeal.Spec.out x e W1 b1 W2 b2 := by
  rw [row64, row40]
  unfold Bias.addBias BiasRelu.biasRelu Dense1.product Dense2.product Cert.ReferenceIdeal.Spec.out
  rfl

end Cert.KernelIdeal.Whole

end
-- ==== Proof.lean ====
/-
  A two-layer graph convolution: the tiled kernel program against its plain reference, on the extended reals.

  Both programs compute  out = Â (relu (Â (X·W₁) + b₁) · W₂) + b₂  over a graph of 100000 nodes and 1600000 edges, where the
  aggregation Â H gathers, for every edge and every node's self-loop, the source node's row of H, scales it by
  deg^(-1/2)[source] · deg^(-1/2)[target], and adds it into the target node's row. The gathers, the scatter-adds and the
  degree normalisation are the same host operations in both programs, on the same edge list, so they are never opened:
  whatever they do with an out-of-range or negative node number, they do it on both sides. What differs is how the two
  dense products and the two bias steps are carried out: the kernel program runs each as a pipelined region over twenty
  blocks of 5000 rows (the products on the matrix unit with operands rounded to bf16, into a zero accumulator), the
  reference as one host contraction and one broadcast-add (and a maximum with zero). On the extended reals the rounding
  is the identity, a block of rows of a product depends on those rows of the left factor only, and the bias steps are
  entry by entry, so each region leaves exactly the host's whole-array value (Dense1, BiasRelu, Dense2, Bias); reading
  the kernel program's buffers boundary by boundary (HostGlue) then gives the reference's term (Spec, RefSpec) up to
  how a bias vector is made a row (Bridge). No sum is reordered and nothing is cancelled, so finiteness of the inputs
  is not used. The kernel program's idealization rewrote nothing, so it preserves the kernel trivially.
-/
import proofs.«129518_j10282151706868_1_alg».proof.Defs
import proofs.«129518_j10282151706868_1_alg».proof.Proof.Gen.Kernel
import proofs.«129518_j10282151706868_1_alg».proof.Proof.Gen.Kernel.Skeleton
import proofs.«129518_j10282151706868_1_alg».proof.Proof.Gen.Kernel.Launch
import proofs.«129518_j10282151706868_1_alg».proof.Proof.Gen.Kernel.Points
import proofs.«129518_j10282151706868_1_alg».proof.Proof.Gen.Kernel.Frame
import proofs.«129518_j10282151706868_1_alg».proof.Proof.Gen.KernelIdeal
import proofs.«129518_j10282151706868_1_alg».proof.Proof.Gen.KernelIdeal.Skeleton
import proofs.«129518_j10282151706868_1_alg».proof.Proof.Gen.KernelIdeal.Launch
import proofs.«129518_j10282151706868_1_alg».proof.Proof.Gen.KernelIdeal.Points
import proofs.«129518_j10282151706868_1_alg».proof.Proof.Gen.KernelIdeal.Frame
import proofs.«129518_j10282151706868_1_alg».proof.Proof.Gen.ReferenceIdeal
import proofs.«129518_j10282151706868_1_alg».proof.Proof.Gen.Pre_finite_inputs
import proofs.«129518_j10282151706868_1_alg».proof.Proof.RefRun
import proofs.«129518_j10282151706868_1_alg».proof.Proof.RefSpec
import proofs.«129518_j10282151706868_1_alg».proof.Proof.KernelRun
import proofs.«129518_j10282151706868_1_alg».proof.Proof.HostGlue
import proofs.«129518_j10282151706868_1_alg».proof.Proof.Bridge
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel program. -/
theorem preserves : Cert.preserves_Kernel_KernelIdeal := trivial

/-- From memories agreeing on the six arguments both programs end with the network's value of those arguments in their
    result buffers: the kernel program's read off its buffers boundary by boundary, the reference's off its run. -/
theorem algebraic : Cert.algebraic_KernelIdeal_ReferenceIdeal := by
  intro m ρ m' ρ' _ hagree
  refine ⟨fun c => Cert.ReferenceIdeal.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩)
      (Cert.KernelIdeal.Whole.run_out (F := Ideal) m ρ)
    rw [Cert.KernelIdeal.Whole.W9_out m ρ c Cert.ReferenceIdeal.Gen.bcast_S1x64_S100000x64_0_1
      Cert.ReferenceIdeal.Gen.bcast_S_S100000x64 Cert.ReferenceIdeal.Gen.bcast_S1x40_S100000x40_0_1]
    exact Cert.KernelIdeal.Whole.network_eq _ _ _ _ _ _ _ _ _
  · refine (θ_run Cert.ReferenceIdeal.defs _ _).mono (fun _ h c => ⟨(h c).1.trans ?_, (h c).2⟩)
      (Cert.ReferenceIdeal.ValueP.run (F := Ideal) m' ρ')
    rw [Cert.ReferenceIdeal.Spec.res_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
